-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128 : Shape := ⟨1, ![128]⟩
abbrev S128x128 : Shape := ⟨2, ![128, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1000000x128 .f32) (main_arg1 : FVec F S128 .f32) (main_arg2 : FVec F S128x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S1000000x128 : Shape := ⟨2, ![1000000, 128]⟩
abbrev S128 : Shape := ⟨1, ![128]⟩
abbrev S128x128 : Shape := ⟨2, ![128, 128]⟩
abbrev S_ : Shape := ⟨0, ![]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128x128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .bf16⟩
  | .hbm, ⟨19, _⟩ => ⟨S1x128, .f32⟩
  | .hbm, ⟨20, _⟩ => ⟨S1000000x128, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S128x128, .bf16⟩
  | .local _ .vmem, ⟨4, _⟩ => ⟨S10000x128, .f32⟩
  | .local _ .vmem, ⟨5, _⟩ => ⟨S10000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128 : S_.BroadcastsInDim S128 (![] : Fin 0 → Fin S128.rank)
  bcast_S_S128x128 : S_.BroadcastsInDim S128x128 (![] : Fin 0 → Fin S128x128.rank)
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S1000000x128.size a
  hwx0_3 : ∀ i : grid0.Coords, EltTy.bits .f32 = 32 ∨ (Rect.block (s := S1000000x128) S10000x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S128 : Shape := ⟨1, ![128]⟩
abbrev S128x128 : Shape := ⟨2, ![128, 128]⟩
abbrev S_ : Shape := ⟨0, ![]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128x128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1000000x128, .f32⟩
  | .hbm, ⟨18, _⟩ => ⟨S128x128, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S1000000x128, .f32⟩
  | .hbm, ⟨24, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S128x128 : S_.BroadcastsInDim S128x128 (![] : Fin 0 → Fin S128x128.rank)
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  dot_S1000000x128_S128x128_S1000000x128_1_0_0_1_n_n_wf : DotDims.WF S1000000x128 S128x128 S1000000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf

class Facts : Prop extends Facts₀ where

variable [Facts]
-- ==== Proof.DivNorm.lean ====
/-
  The mathematics of the divisive normalization, on the extended reals, with no program in sight.

  For a data array x[n, k], a per-channel floor-reparameterized bias b[i] = max(β[i], β₀)² − p and gain
  g[i, k] = max(γ[i, k], γ₀)² − p (p the pedestal, γ₀² = p, β₀² > p), the squared norm at row n, channel i is
      s[n, i] = Σ_k x[n, k]² · g[i, k] + b[i],
  and the normalized array is x[n, i] · rsqrt(s[n, i]).  One side of the certificate spells the last step as a product with
  the reciprocal square root, the other as a quotient by the square root.  On the extended reals the two agree
  exactly when s is positive (at s = 0 and below zero the conventions of the two spellings differ), so the module
  proves: s > 0 for EVERY input, finite or not — the gain is nonnegative and the bias strictly positive because each
  is a square of something at least the floor, minus the pedestal, and x² ≥ 0 — and then the law
  x · rsqrt s = x / sqrt s for s > 0 (s = +∞ included: both sides are x · 0).
-/
import Idealize.ShloMosaic.PureOps.Ideal
import Idealize.ShloMosaic.PureOps.Ideal.Laws
import Idealize.ShloMosaic.Lib.ValueIdx

noncomputable section

namespace Cert.DivNorm

open Idealize.ShloMosaic Idealize.ShloMosaic.ValueIdx

/-! ## The three constants the reparameterization spells -/

/-- The floor of β: the float nearest sqrt(1e-6 + 2⁻³⁶). -/
abbrev betaFloor : EReal := Ideal.ofBits .f32 0x3A8312AD#32
/-- The floor of γ: 2⁻¹⁸. -/
abbrev gammaFloor : EReal := Ideal.ofBits .f32 0x36800000#32
/-- The pedestal: 2⁻³⁶. -/
abbrev pedestal : EReal := Ideal.ofBits .f32 0x2D800000#32

theorem betaFloor_eq : betaFloor = ((8589997 / 8589934592 : ℝ) : EReal) := by
  simp [betaFloor, Ideal.ofBits, Ideal.ieee, -EReal.coe_mul]; norm_num

theorem gammaFloor_eq : gammaFloor = ((1 / 262144 : ℝ) : EReal) := by
  simp [gammaFloor, Ideal.ofBits, Ideal.ieee, -EReal.coe_mul]; norm_num

theorem pedestal_eq : pedestal = ((1 / 68719476736 : ℝ) : EReal) := by
  simp [pedestal, Ideal.ofBits, Ideal.ieee, -EReal.coe_mul]; norm_num

/-! ## A floored square minus the pedestal -/

/-- Squaring is monotone above a nonnegative real floor, and subtracting a real keeps the order: whatever extended
    real `a` is, max(a, c)² − p is at least c² − p. -/
theorem floored_sq_sub_ge (a : EReal) (c p : ℝ) (hc : 0 ≤ c) :
    ((c * c - p : ℝ) : EReal) ≤ max a (c : EReal) * max a (c : EReal) - (p : EReal) := by
  have h : (c : EReal) ≤ max a (c : EReal) := le_max_right _ _
  have h0 : (0 : EReal) ≤ (c : EReal) := EReal.coe_nonneg.mpr hc
  have hm : (c : EReal) * (c : EReal) ≤ max a (c : EReal) * max a (c : EReal) :=
    mul_le_mul h h h0 (h0.trans h)
  rw [EReal.coe_sub, EReal.coe_mul]
  exact EReal.sub_le_sub hm le_rfl

/-- A square on the extended reals is nonnegative (the infinities square to +∞). -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-! ## The specification -/

/-- The reparameterized bias of channel `i`: max(β[i], β₀)² − p. -/
def bias (β : (⟨1, ![128]⟩ : Shape).Idx → EReal) (i : Fin 128) : EReal :=
  max (β (ix1 i)) betaFloor * max (β (ix1 i)) betaFloor - pedestal

/-- The reparameterized gain from channel `k` into channel `i`: max(γ[i, k], γ₀)² − p. -/
def gain (γ : (⟨2, ![128, 128]⟩ : Shape).Idx → EReal) (i k : Fin 128) : EReal :=
  max (γ (ix2 i k)) gammaFloor * max (γ (ix2 i k)) gammaFloor - pedestal

/-- The squared norm at row `n`, channel `i`: Σ_k x[n, k]² · g[i, k] + b[i]. -/
def normSq (x : (⟨2, ![1000000, 128]⟩ : Shape).Idx → EReal) (β : (⟨1, ![128]⟩ : Shape).Idx → EReal)
    (γ : (⟨2, ![128, 128]⟩ : Shape).Idx → EReal) (n : Fin 1000000) (i : Fin 128) : EReal :=
  (∑ k : Fin 128, x (ix2 n k) * x (ix2 n k) * gain γ i k) + bias β i

/-- The normalized array: x[n, i] · rsqrt(s[n, i]). -/
def normalized (x : (⟨2, ![1000000, 128]⟩ : Shape).Idx → EReal) (β : (⟨1, ![128]⟩ : Shape).Idx → EReal)
    (γ : (⟨2, ![128, 128]⟩ : Shape).Idx → EReal) : (⟨2, ![1000000, 128]⟩ : Shape).Idx → EReal :=
  fun j => x j * Ideal.rsqrt (normSq x β γ (j 0) (j 1))

/-! ## Positivity -/

/-- The bias is strictly positive: β₀² − p = 8589997²/2⁶⁶ − 2⁻³⁶ > 0. -/
theorem bias_pos (β : (⟨1, ![128]⟩ : Shape).Idx → EReal) (i : Fin 128) : 0 < bias β i := by
  unfold bias
  rw [betaFloor_eq, pedestal_eq]
  refine lt_of_lt_of_le ?_ (floored_sq_sub_ge _ _ _ (by norm_num))
  exact EReal.coe_pos.mpr (by norm_num)

/-- The gain is nonnegative: γ₀² − p = 0. -/
theorem gain_nonneg (γ : (⟨2, ![128, 128]⟩ : Shape).Idx → EReal) (i k : Fin 128) : 0 ≤ gain γ i k := by
  unfold gain
  rw [gammaFloor_eq, pedestal_eq]
  refine le_trans ?_ (floored_sq_sub_ge _ _ _ (by norm_num))
  exact EReal.coe_nonneg.mpr (by norm_num)

/-- The squared norm is strictly positive, whatever the inputs: a sum of nonnegative products plus a positive bias. -/
theorem normSq_pos (x : (⟨2, ![1000000, 128]⟩ : Shape).Idx → EReal) (β : (⟨1, ![128]⟩ : Shape).Idx → EReal)
    (γ : (⟨2, ![128, 128]⟩ : Shape).Idx → EReal) (n : Fin 1000000) (i : Fin 128) : 0 < normSq x β γ n i := by
  unfold normSq
  have hs : (0 : EReal) ≤ ∑ k : Fin 128, x (ix2 n k) * x (ix2 n k) * gain γ i k :=
    Finset.sum_nonneg fun k _ => mul_nonneg (mul_self_nonneg _) (gain_nonneg γ i k)
  exact lt_of_lt_of_le (bias_pos β i) (le_add_of_nonneg_left hs)

/-! ## The law that joins the two spellings -/

/-- For a positive extended real `s` the product with the reciprocal square root is the quotient by the square root:
    at a positive real both are x · (√s)⁻¹, at +∞ both are x · 0. -/
theorem mul_rsqrt_eq_div_sqrt (x s : EReal) (hs : 0 < s) : x * Ideal.rsqrt s = Ideal.div x (Ideal.sqrt s) := by
  induction s using EReal.rec with
  | bot => exact absurd hs (not_lt_bot)
  | coe r =>
    have hr : 0 < r := EReal.coe_pos.mp hs
    have hq : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hq, one_div]
  | top =>
    rw [Ideal.rsqrt_top, Ideal.sqrt_top, Ideal.div, if_neg EReal.top_ne_zero, EReal.inv_top]

end Cert.DivNorm

end
-- ==== Proof.RefNormalized.lean ====
/-
  The reference, read at an index, is the normalized array of the specification.

  Read one operation at a time, the reference's result at row n, channel j is
      x[n, j] / sqrt( Σ_k (x[n, k] · x[n, k]) · gᵀ[k, j] + b[j] ),
  with gᵀ the transposed gain (gᵀ[k, j] = g[j, k]) and b the bias broadcast along the rows.  The sum and the bias are the
  specification's squared norm s[n, j] term for term; s[n, j] > 0, so the quotient by its square root is the product
  with its reciprocal square root.
-/
import proofs.«156813_j19971597926631_2_alg».proof.Proof.Gen.ReferenceIdeal.Read
import proofs.«156813_j19971597926631_2_alg».proof.Proof.DivNorm

noncomputable section

namespace Cert.ReferenceIdeal.RefValue

open Cert.ReferenceIdeal Cert.ReferenceIdeal.Read Idealize.ShloMosaic Idealize.ShloMosaic.ValueIdx Cert.DivNorm

/-- The left operand of the contraction at output (n, j), summand k, is read at (n, k). -/
theorem lidx_eq (n : Fin 1000000) (j k : Fin 128) : lidx_main_v12 (ix2 n j) k = ix2 n k :=
  funext fun a => Fin.ext (by match a with | ⟨0, _⟩ => rfl | ⟨1, _⟩ => rfl)

/-- The right operand is the transposed gain at (k, j): the gain itself at (j, k). -/
theorem gidx_eq (n : Fin 1000000) (j k : Fin 128) : idx_main_v11 (ridx_main_v12 (ix2 n j) k) = ix2 j k :=
  funext fun a => Fin.ext (by match a with | ⟨0, _⟩ => rfl | ⟨1, _⟩ => rfl)

/-- The bias broadcast to (n, j) is the bias of channel j. -/
theorem bidx_eq (n : Fin 1000000) (j : Fin 128) : idx_main_v13 (idx_main_v14 (ix2 n j)) = ix1 j :=
  funext fun a => Fin.ext (by match a with | ⟨0, _⟩ => rfl)

/-- The reference's result is the normalized array. -/
theorem ref_eq (x : (⟨S1000000x128, .f32⟩ : BufTy).Contents (Elt Ideal)) (β : (⟨S128, .f32⟩ : BufTy).Contents (Elt Ideal))
    (γ : (⟨S128x128, .f32⟩ : BufTy).Contents (Elt Ideal)) :
    val_main_v17 (F := Ideal) x β γ = normalized x β γ := by
  funext i
  obtain ⟨n, j, rfl⟩ : ∃ (n : Fin 1000000) (j : Fin 128), i = ix2 n j := ⟨i 0, i 1, eq_ix2 i⟩
  simp only [val_main_v17_apply, val_main_v16_apply, val_main_v15_apply, val_main_v12_apply, val_main_v14_apply,
    val_main_v13_apply, val_main_v4_apply, val_main_v2_apply, val_main_v1_apply, val_main_v0_apply, val_main_cst_apply,
    val_main_v3_apply, val_main_cst_0_apply, val_main_v10_apply, val_main_v11_apply, val_main_v9_apply,
    val_main_v7_apply, val_main_v6_apply, val_main_v5_apply, val_main_cst_1_apply, val_main_v8_apply,
    val_main_cst_2_apply, lidx_eq, gidx_eq, bidx_eq, Ideal.mulf_def, Ideal.addf_def, Ideal.subf_def,
    Ideal.maximumf_def, Ideal.hostDivf_def, Ideal.hostUnary_sqrt_def, Ideal.ofBits_def]
  exact (mul_rsqrt_eq_div_sqrt _ _ (normSq_pos x β γ n j)).symm

end Cert.ReferenceIdeal.RefValue

end
-- ==== Proof.KernelBody.lean ====
/-
  What the kernel's body computes from its three loaded blocks, read at one index, on the extended reals.

  From a block X of rows (10000 × 128), the transposed gain Gt (128 × 128, Gt[k, j] = g[j, k]) and the bias row B (1 × 128),
  the body stores, at row r and channel j,
      X[r, j] · rsqrt( Σ_k (X[r, k] · X[r, k]) · Gt[k, j] + B[0, j] ):
  the matrix product onto a zero accumulator is the plain sum over the contracted channel, a change of float format is
  the identity, the bias row is repeated along the rows.
-/
import proofs.«156813_j19971597926631_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's record: rows of the left operand against columns of the right, one contracted axis of extent 128. -/
abbrev D := dot_S10000x128_S128x128_S10000x128_1_0_0_1_n_n

theorem lhs_row (i : S10000x128.Idx) (q : D.contr.Idx) : (D.lhsIdx i q 0).val = (i 0).val := by
  unfold DotDims.lhsIdx
  rw [dif_neg (show ¬(0 : Fin S10000x128.rank) ∈ D.lhsBatch by decide), dif_pos (show (0 : Fin S10000x128.rank) ∈ D.lhsNonContracting by decide)]
  rfl

theorem lhs_contr (i : S10000x128.Idx) (q : D.contr.Idx) : (D.lhsIdx i q 1).val = (q ⟨0, by decide⟩).val :=
  D.lhsIdx_val_of_single rfl i q

theorem rhs_contr (i : S10000x128.Idx) (q : D.contr.Idx) : (D.rhsIdx i q 0).val = (q ⟨0, by decide⟩).val :=
  D.rhsIdx_val_of_single rfl i q

theorem rhs_col (i : S10000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The matrix product onto a zero accumulator, at row r and column j: the sum over k of left[r, k] · right[k, j]. -/
theorem product_apply (a : FVec Ideal S10000x128 .bf16) (w : FVec Ideal S128x128 .bf16) (r : Fin 10000) (j : Fin 128) :
    matmul D none a w (constant (F := Ideal) S10000x128 .f32 0x00000000#32) (ix2 r j)
      = ∑ k : Fin 128, a (ix2 r k) * w (ix2 k j) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r j) ((contrEquiv1 D 128 rfl rfl).symm k) = ix2 r k := funext fun a => Fin.ext (by
    match a with
    | ⟨0, _⟩ => exact lhs_row _ _
    | ⟨1, _⟩ => exact (lhs_contr _ _).trans hk)
  have er : D.rhsIdx (ix2 r j) ((contrEquiv1 D 128 rfl rfl).symm k) = ix2 k j := funext fun a => Fin.ext (by
    match a with
    | ⟨0, _⟩ => exact (rhs_contr _ _).trans hk
    | ⟨1, _⟩ => exact rhs_col _ _)
  rw [el, er]

/-- The body's stored value at row r, channel j. -/
theorem payload_apply (x0 : Vec Ideal S10000x128 .f32) (gt : Vec Ideal S128x128 .bf16) (b : Vec Ideal S1x128 .f32)
    (r : Fin 10000) (j : Fin 128) :
    k0_pay1 (F := Ideal) x0 gt b (ix2 r j)
      = x0 (ix2 r j) * Ideal.rsqrt ((∑ k : Fin 128, x0 (ix2 r k) * x0 (ix2 r k) * gt (ix2 k j)) + b (ix2 (0 : Fin 1) j)) := by
  unfold k0_pay1
  rw [mulf_apply]
  show x0 (ix2 r j) * Ideal.rsqrt (addf (matmul D none (truncf .bf16 (mulf x0 x0) bitsLt_bf16_f32) (shapeCast S128x128 gt shapeCasts_S128x128_S128x128)
      (constant (F := Ideal) S10000x128 .f32 0x00000000#32))
      (broadcastTo S10000x128 (shapeCast S1x128 b shapeCasts_S1x128_S1x128) broadcasts_S1x128_S10000x128) (ix2 r j)) = _
  rw [addf_apply, product_apply, broadcastTo_1b_ab_apply, shapeCast_self, shapeCast_self]
  rfl

end Cert.KernelIdeal.Body

end
-- ==== Proof.Prepared.lean ====
/-
  What the region finds in the two parameter arrays the host prepares before the kernel runs.

  Before the call the host computes, from the arguments β and γ alone, the bias row b (max(β, β₀)² − p, laid out as one row
  of 128) and the transposed, reformatted gain gᵀ (the transpose of max(γ, γ₀)² − p).  Read at an index these are the
  specification's bias of channel j and its gain from channel k into channel j.
-/
import proofs.«156813_j19971597926631_2_alg».proof.Proof.Gen.KernelIdeal.Frame
import proofs.«156813_j19971597926631_2_alg».proof.Proof.DivNorm
import Idealize.ShloMosaic.Lib.StableHlo.Run
import Idealize.ShloMosaic.Lib.ValueLayout
import Idealize.ShloMosaic.Lib.Pipeline.Value

noncomputable section

namespace Cert.KernelIdeal.Prepared

open Cert.KernelIdeal Cert.KernelIdeal.Gen Idealize.ShloMosaic Idealize.ShloMosaic.TcCoe Idealize.ShloMosaic.ValueIdx
open Idealize.ShloMosaic.StableHlo Cert.DivNorm

variable (m : (ℓ : Loc nD τ sig) → Buf (Elt Ideal) ℓ)

/-- The bias row as the host operations' term of β. -/
theorem biasRow_term (c : Dev nD) :
    (V m c main_v12 : S1x128.Idx → EReal)
      = shapeCast S1x128 (subf (mulf
          (maximumf (m ((c : Thread nD τ).loc main_arg1)) (broadcastInDim S128 ![] bcast_S_S128 (constant (F := Ideal) S_ .f32 0x3A8312AD#32)))
          (maximumf (m ((c : Thread nD τ).loc main_arg1)) (broadcastInDim S128 ![] bcast_S_S128 (constant (F := Ideal) S_ .f32 0x3A8312AD#32))))
          (broadcastInDim S128 ![] bcast_S_S128 (constant (F := Ideal) S_ .f32 0x2D800000#32))) shapeCasts_S128_S1x128 := by
  dsimp only [Gen.V, Gen.hostOps0]; after_results; rfl

/-- The transposed gain as the host operations' term of γ. -/
theorem gainT_term (c : Dev nD) :
    (V m c main_v11 : S128x128.Idx → EReal)
      = truncf .bf16 (transpose S128x128 [1, 0] (subf (mulf
          (maximumf (m ((c : Thread nD τ).loc main_arg2)) (broadcastInDim S128x128 ![] bcast_S_S128x128 (constant (F := Ideal) S_ .f32 0x36800000#32)))
          (maximumf (m ((c : Thread nD τ).loc main_arg2)) (broadcastInDim S128x128 ![] bcast_S_S128x128 (constant (F := Ideal) S_ .f32 0x36800000#32))))
          (broadcastInDim S128x128 ![] bcast_S_S128x128 (constant (F := Ideal) S_ .f32 0x2D800000#32))) transposes_S128x128_S128x128_1_0) bitsLt_bf16_f32 := by
  dsimp only [Gen.V, Gen.hostOps0]; after_results

/-- The bias row at column j is the bias of channel j. -/
theorem biasRow_apply (c : Dev nD) (j : Fin 128) :
    (V m c main_v12 : S1x128.Idx → EReal) (ix2 (0 : Fin 1) j) = bias (m ((c : Thread nD τ).loc main_arg1)) j := by
  rw [biasRow_term, shapeCast_a_1a_apply]
  rfl

/-- The transposed gain at (k, j) is the gain from channel k into channel j. -/
theorem gainT_apply (c : Dev nD) (k j : Fin 128) :
    (V m c main_v11 : S128x128.Idx → EReal) (ix2 k j) = gain (m ((c : Thread nD τ).loc main_arg2)) j k := by
  rw [gainT_term, truncf_apply, transpose_ix2_apply]
  rfl

end Cert.KernelIdeal.Prepared

end
-- ==== Proof.Blocks.lean ====
/-
  From the blocks to the whole array: after the run the kernel's result array is the normalized array of the specification.

  Grid point t reads rows 10000·t … 10000·t + 9999 of x, the whole bias row and the whole transposed gain, and writes back
  the same rows of the result.  Inside the block, row r is row n = 10000·t + r of the array, so the body's value at (r, j)
  — X[r, j] · rsqrt(Σ_k X[r, k]² · Gt[k, j] + B[0, j]) — is the normalized array at (n, j).  The hundred blocks tile the
  million rows (row n lies in block n / 10000), so the array ends holding the normalized array everywhere.
-/
import proofs.«156813_j19971597926631_2_alg».proof.Proof.Gen.KernelIdeal.Value
import proofs.«156813_j19971597926631_2_alg».proof.Proof.KernelBody
import proofs.«156813_j19971597926631_2_alg».proof.Proof.Prepared
import proofs.«156813_j19971597926631_2_alg».proof.Proof.DivNorm

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.DivNorm
open Idealize.ShloMosaic.Pipeline (Dat)

variable (m : (ℓ : Loc nD τ sig) → Buf (Elt Ideal) ℓ) (ρ : Dev nD → PrngReg)

/-- The normalized array of the arguments as launched. -/
abbrev result (c : Dev nD) : Buf (Elt Ideal) ((c : Thread nD τ).loc main_v13) :=
  normalized (m ((c : Thread nD τ).loc main_arg0)) (m ((c : Thread nD τ).loc main_arg1)) (m ((c : Thread nD τ).loc main_arg2))

theorem hz : (![0, 0] : Fin 2 → Nat) = fun _ => 0 := funext fun a => by fin_cases a <;> rfl

/-- One entry of one block: if row r of the loaded block is row n of x, the loaded gain is the transposed gain and the
    loaded bias row the bias, the body's value at (r, j) is the normalized array at (n, j). -/
theorem point_eq (X : (⟨2, ![1000000, 128]⟩ : Shape).Idx → EReal) (β : (⟨1, ![128]⟩ : Shape).Idx → EReal)
    (γ : (⟨2, ![128, 128]⟩ : Shape).Idx → EReal)
    (x0 : Vec Ideal S10000x128 .f32) (gt : Vec Ideal S128x128 .bf16) (b : Vec Ideal S1x128 .f32)
    (r : Fin 10000) (j : Fin 128) (n : Fin 1000000)
    (hx : ∀ k : Fin 128, x0 (ix2 r k) = X (ix2 n k))
    (hg : ∀ k : Fin 128, gt (ix2 k j) = gain γ j k)
    (hb : b (ix2 (0 : Fin 1) j) = bias β j) :
    k0_pay1 (F := Ideal) x0 gt b (ix2 r j) = normalized X β γ (ix2 n j) := by
  rw [Cert.KernelIdeal.Body.payload_apply, hx j, hb]
  simp only [hx, hg]
  rfl

/-- The printed index maps, decided over the hundred grid points: the input rows move with the output rows, the two
    parameter blocks stay at the origin, and the output's block index is (t, 0) with t below 100. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 99 ∧ win0_3.index t (1 : Fin 2) = 0 :=
  (by decide +kernel : ∀ t : Fin grid0.N, _)

/-- Every block of rows is some point's. -/
theorem idx_onto : ∀ q : Fin 100, ∃ t : Fin cfg0.N, win0_3.index t = ![q.val, 0] :=
  (by decide +kernel : ∀ q : Fin 100, ∃ t : Fin grid0.N, win0_3.index t = ![q.val, 0])

/-- The body's value at an entry of point t's block is the normalized array at the entry's place in the array. -/
theorem block_point (c : Dev nD) (t : Fin cfg0.N) (y : S10000x128.Idx) :
    k0_pay1 (F := Ideal) (iblk m c 0 t : Vec Ideal S10000x128 .f32) (iblk m c 2 t : Vec Ideal S128x128 .bf16)
        (iblk m c 1 t : Vec Ideal S1x128 .f32) y
      = result m c (((cfg0.win 3).blk t).view.emb y) := by
  obtain ⟨e00, e01, e10, e11, e20, e21, e30, e31⟩ := idx_facts t
  obtain ⟨r, j, rfl⟩ : ∃ (r : Fin 10000) (j : Fin 128), y = ix2 r j := ⟨y 0, y 1, eq_ix2 y⟩
  have hr : r.val < 10000 := r.isLt
  have hi : (((cfg0.win 3).blk t).view.emb (ix2 r j) : S1000000x128.Idx)
      = ix2 (⟨win0_3.index t (0 : Fin 2) * 10000 + r.val, by omega⟩ : Fin 1000000) j := by
    funext a; apply Fin.ext
    match a with
    | ⟨0, _⟩ => show win0_3.index t (0 : Fin 2) * 10000 + 1 * r.val = win0_3.index t (0 : Fin 2) * 10000 + r.val; omega
    | ⟨1, _⟩ => show win0_3.index t (1 : Fin 2) * 128 + 1 * j.val = j.val; omega
  rw [hi]
  refine point_eq _ _ _ _ _ _ r j _ (fun k => ?_) (fun k => ?_) ?_
  · show V m c main_arg0 (((cfg0.win 0).blk t).view.emb (ix2 r k)) = _
    rw [V_main_arg0]
    refine congrArg (m ((c : Thread nD τ).loc main_arg0)) (funext fun a => Fin.ext ?_)
    match a with
    | ⟨0, _⟩ => show win0_0.index t (0 : Fin 2) * 10000 + 1 * r.val = win0_3.index t (0 : Fin 2) * 10000 + r.val; omega
    | ⟨1, _⟩ => show win0_0.index t (1 : Fin 2) * 128 + 1 * k.val = k.val; omega
  · show V m c main_v11 (((cfg0.win 2).blk t).view.emb (ix2 k j)) = _
    have he : (((cfg0.win 2).blk t).view.emb (ix2 k j) : S128x128.Idx) = ix2 k j := by
      funext a; apply Fin.ext
      match a with
      | ⟨0, _⟩ => show win0_2.index t (0 : Fin 2) * 128 + 1 * k.val = k.val; omega
      | ⟨1, _⟩ => show win0_2.index t (1 : Fin 2) * 128 + 1 * j.val = j.val; omega
    rw [he]
    exact Cert.KernelIdeal.Prepared.gainT_apply m c k j
  · show V m c main_v12 (((cfg0.win 1).blk t).view.emb (ix2 (0 : Fin 1) j)) = _
    have he : (((cfg0.win 1).blk t).view.emb (ix2 (0 : Fin 1) j) : S1x128.Idx) = ix2 (0 : Fin 1) j := by
      funext a; apply Fin.ext
      match a with
      | ⟨0, _⟩ => show win0_1.index t (0 : Fin 2) * 1 + 1 * 0 = 0; omega
      | ⟨1, _⟩ => show win0_1.index t (1 : Fin 2) * 128 + 1 * j.val = j.val; omega
    rw [he]
    exact Cert.KernelIdeal.Prepared.biasRow_apply m c j

/-- What point t writes back is block t of the normalized array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S10000x128) hz, View.ld_unit_zero (S := S128x128) hz, View.ld_unit_zero (S := S1x128) hz]
  funext y
  exact block_point m c t y

/-- An index of the array is in point t's block iff each coordinate is in the block's range on its axis. -/
theorem mem_blk (t : Fin cfg0.N) (i : S1000000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- The blocks tile the array: row n lies in the block of point n / 10000. -/
theorem cover (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the run is the normalized array. -/
theorem final (c : Dev nD) : (dats m 0 c).arrAt 3 cfg0.N = result m c :=
  (dats m 0 c).arrAt_eq_of_cover 3 (result m c) (fun t _ => flushed_eq m c t) cover

/-- The kernel's run, read: the result array at the normalized array of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one divisive normalization: with bias b = max(β, β₀)² − p and gain
  g = max(γ, γ₀)² − p, and s[n, i] = Σ_k x[n, k]² · g[i, k] + b[i], both return x[n, i] scaled by the inverse square root
  of s[n, i] — the kernel as a product with rsqrt(s), the reference as a quotient by sqrt(s).

  On the extended reals the two spellings agree exactly where s > 0, and s > 0 holds for every input: the gain is
  nonnegative (γ₀² = p), the bias strictly positive (β₀² > p), and squares are nonnegative; no finiteness is used.
  The kernel's result array is assembled from its hundred row blocks, the reference's is read one operation at a time,
  and both are the one function `Cert.DivNorm.normalized` of the arguments.  The idealization rewrote nothing, so it is
  preserved trivially; the three frames are the generated ones.
-/
import proofs.«156813_j19971597926631_2_alg».proof.Defs
import proofs.«156813_j19971597926631_2_alg».proof.Proof.Gen.Kernel
import proofs.«156813_j19971597926631_2_alg».proof.Proof.Gen.Kernel.Skeleton
import proofs.«156813_j19971597926631_2_alg».proof.Proof.Gen.Kernel.Launch
import proofs.«156813_j19971597926631_2_alg».proof.Proof.Gen.Kernel.Points
import proofs.«156813_j19971597926631_2_alg».proof.Proof.Gen.Kernel.Frame
import proofs.«156813_j19971597926631_2_alg».proof.Proof.Gen.KernelIdeal
import proofs.«156813_j19971597926631_2_alg».proof.Proof.Gen.KernelIdeal.Skeleton
import proofs.«156813_j19971597926631_2_alg».proof.Proof.Gen.KernelIdeal.Launch
import proofs.«156813_j19971597926631_2_alg».proof.Proof.Gen.KernelIdeal.Points
import proofs.«156813_j19971597926631_2_alg».proof.Proof.Gen.KernelIdeal.Frame
import proofs.«156813_j19971597926631_2_alg».proof.Proof.Gen.ReferenceIdeal
import proofs.«156813_j19971597926631_2_alg».proof.Proof.Gen.Pre_finite_inputs
import proofs.«156813_j19971597926631_2_alg».proof.Proof.Gen.KernelIdeal.Value
import proofs.«156813_j19971597926631_2_alg».proof.Proof.Gen.ReferenceIdeal.Run
import proofs.«156813_j19971597926631_2_alg».proof.Proof.Gen.ReferenceIdeal.Read
import proofs.«156813_j19971597926631_2_alg».proof.Proof.DivNorm
import proofs.«156813_j19971597926631_2_alg».proof.Proof.RefNormalized
import proofs.«156813_j19971597926631_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the normalized array of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
